-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v39) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x625000 : Shape := ⟨2, ![2, 625000]⟩
abbrev S625000 : Shape := ⟨1, ![625000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S625000 : S_.BroadcastsInDim S625000 (![] : Fin 0 → Fin S625000.rank)
  reducesTo_S625000_S_d0 : S625000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x625000 32) (main_arg2 : FVec F S625000 .f32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S625000 .f32 := Host.absf main_arg2
  let main_cst_0 : FVec F S_ .f32 := constant S_ .f32 0x7F800000#32
  let main_v5 : FVec F S625000 .f32 := broadcastInDim S625000 ![] bcast_S_S625000 main_cst_0
  let main_v6 : IVec S625000 1 := cmpf .olt main_v4 main_v5
  let main_c_1 : IVec S_ 1 := constantI S_ 1 1#1
  let main_v7 : IVec S_ 1 := (fun x v => Host.reduce IntOp.andi x v reducesTo_S625000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x625000 : Shape := ⟨2, ![2, 625000]⟩
abbrev S625000 : Shape := ⟨1, ![625000]⟩
abbrev S128x128 : Shape := ⟨2, ![128, 128]⟩
abbrev S128 : Shape := ⟨1, ![128]⟩
abbrev S1x625000 : Shape := ⟨2, ![1, 625000]⟩
abbrev S_ : Shape := ⟨0, ![]⟩
abbrev S625000x1 : Shape := ⟨2, ![625000, 1]⟩
abbrev S625000x128 : Shape := ⟨2, ![625000, 128]⟩
abbrev S1x128 : Shape := ⟨2, ![1, 128]⟩
abbrev S10000x128 : Shape := ⟨2, ![10000, 128]⟩

abbrev nBuf : Space → Nat
  | .hbm => 56
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S625000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x625000, .i32⟩
  | .hbm, ⟨8, _⟩ => ⟨S625000, .i32⟩
  | .hbm, ⟨9, _⟩ => ⟨S1x625000, .i32⟩
  | .hbm, ⟨10, _⟩ => ⟨S625000, .i32⟩
  | .hbm, ⟨11, _⟩ => ⟨S_, .i32⟩
  | .hbm, ⟨12, _⟩ => ⟨S625000, .i32⟩
  | .hbm, ⟨13, _⟩ => ⟨S625000, .i1⟩
  | .hbm, ⟨14, _⟩ => ⟨S_, .i32⟩
  | .hbm, ⟨15, _⟩ => ⟨S625000, .i32⟩
  | .hbm, ⟨16, _⟩ => ⟨S625000, .i32⟩
  | .hbm, ⟨17, _⟩ => ⟨S625000, .i32⟩
  | .hbm, ⟨18, _⟩ => ⟨S625000x1, .i32⟩
  | .hbm, ⟨19, _⟩ => ⟨S625000x128, .f32⟩
  | .hbm, ⟨20, _⟩ => ⟨S625000x1, .f32⟩
  | .hbm, ⟨21, _⟩ => ⟨S625000x128, .f32⟩
  | .hbm, ⟨22, _⟩ => ⟨S625000x128, .f32⟩
  | .hbm, ⟨23, _⟩ => ⟨S_, .f32⟩
  | .hbm, ⟨24, _⟩ => ⟨S100000x128, .f32⟩
  | .hbm, ⟨25, _⟩ => ⟨S625000x1, .i32⟩
  | .hbm, ⟨26, _⟩ => ⟨S100000x128, .f32⟩
  | .hbm, ⟨27, _⟩ => ⟨S128x128, .f32⟩
  | .hbm, ⟨28, _⟩ => ⟨S128x128, .bf16⟩
  | .hbm, ⟨29, _⟩ => ⟨S128x128, .f32⟩
  | .hbm, ⟨30, _⟩ => ⟨S128x128, .bf16⟩
  | .hbm, ⟨31, _⟩ => ⟨S1x128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S_, .i32⟩
  | .hbm, ⟨36, _⟩ => ⟨S625000, .i32⟩
  | .hbm, ⟨37, _⟩ => ⟨S625000, .i1⟩
  | .hbm, ⟨38, _⟩ => ⟨S_, .i32⟩
  | .hbm, ⟨39, _⟩ => ⟨S625000, .i32⟩
  | .hbm, ⟨40, _⟩ => ⟨S625000, .i32⟩
  | .hbm, ⟨41, _⟩ => ⟨S625000, .i32⟩
  | .hbm, ⟨42, _⟩ => ⟨S625000x1, .i32⟩
  | .hbm, ⟨43, _⟩ => ⟨S625000x128, .f32⟩
  | .hbm, ⟨44, _⟩ => ⟨S_, .i32⟩
  | .hbm, ⟨45, _⟩ => ⟨S625000, .i32⟩
  | .hbm, ⟨46, _⟩ => ⟨S625000, .i1⟩
  | .hbm, ⟨47, _⟩ => ⟨S_, .i32⟩
  | .hbm, ⟨48, _⟩ => ⟨S625000, .i32⟩
  | .hbm, ⟨49, _⟩ => ⟨S625000, .i32⟩
  | .hbm, ⟨50, _⟩ => ⟨S625000, .i32⟩
  | .hbm, ⟨51, _⟩ => ⟨S625000x1, .i32⟩
  | .hbm, ⟨52, _⟩ => ⟨S625000x128, .f32⟩
  | .hbm, ⟨53, _⟩ => ⟨S625000x128, .f32⟩
  | .hbm, ⟨54, _⟩ => ⟨S_, .f32⟩
  | .hbm, ⟨55, _⟩ => ⟨S625000, .f32⟩
  | .local _ .vmem, ⟨0, _⟩ => ⟨S10000x128, .f32⟩
  | .local _ .vmem, ⟨1, _⟩ => ⟨S10000x128, .f32⟩
  | .local _ .vmem, ⟨2, _⟩ => ⟨S128x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_c_1 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_3 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S625000x1_S625000x128_0_1 : S625000x1.BroadcastsInDim S625000x128 (![0, 1] : Fin 2 → Fin S625000x128.rank)
  bcast_S_S100000x128 : S_.BroadcastsInDim S100000x128 (![] : Fin 0 → Fin S100000x128.rank)
  transposes_S128x128_S128x128_1_0 : S128x128.Transposes [1, 0] S128x128
  bitsLt_bf16_f32 : FTy.bits .bf16 < FTy.bits .f32
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reducesTo_S625000x128_S625000_d1 : S625000x128.ReducesTo [1] S625000
  h_S_ : 0 < S_.numel
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v16) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23_0) S10000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v23_1) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x625000 : Shape := ⟨2, ![2, 625000]⟩
abbrev S625000 : Shape := ⟨1, ![625000]⟩
abbrev S128x128 : Shape := ⟨2, ![128, 128]⟩
abbrev S128 : Shape := ⟨1, ![128]⟩
abbrev S1x625000 : Shape := ⟨2, ![1, 625000]⟩
abbrev S_ : Shape := ⟨0, ![]⟩
abbrev S625000x1 : Shape := ⟨2, ![625000, 1]⟩
abbrev S625000x128 : Shape := ⟨2, ![625000, 128]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S625000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x625000, .i32⟩
  | .hbm, ⟨8, _⟩ => ⟨S625000, .i32⟩
  | .hbm, ⟨9, _⟩ => ⟨S1x625000, .i32⟩
  | .hbm, ⟨10, _⟩ => ⟨S625000, .i32⟩
  | .hbm, ⟨11, _⟩ => ⟨S_, .i32⟩
  | .hbm, ⟨12, _⟩ => ⟨S625000, .i32⟩
  | .hbm, ⟨13, _⟩ => ⟨S625000, .i1⟩
  | .hbm, ⟨14, _⟩ => ⟨S_, .i32⟩
  | .hbm, ⟨15, _⟩ => ⟨S625000, .i32⟩
  | .hbm, ⟨16, _⟩ => ⟨S625000, .i32⟩
  | .hbm, ⟨17, _⟩ => ⟨S625000, .i32⟩
  | .hbm, ⟨18, _⟩ => ⟨S625000x1, .i32⟩
  | .hbm, ⟨19, _⟩ => ⟨S625000x128, .f32⟩
  | .hbm, ⟨20, _⟩ => ⟨S625000x1, .f32⟩
  | .hbm, ⟨21, _⟩ => ⟨S625000x128, .f32⟩
  | .hbm, ⟨22, _⟩ => ⟨S625000x128, .f32⟩
  | .hbm, ⟨23, _⟩ => ⟨S_, .f32⟩
  | .hbm, ⟨24, _⟩ => ⟨S100000x128, .f32⟩
  | .hbm, ⟨25, _⟩ => ⟨S625000x1, .i32⟩
  | .hbm, ⟨26, _⟩ => ⟨S100000x128, .f32⟩
  | .hbm, ⟨27, _⟩ => ⟨S128x128, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S128x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .i1⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | .hbm, ⟨54, _⟩ => ⟨S_, .i32⟩
  | .hbm, ⟨55, _⟩ => ⟨S625000, .i32⟩
  | .hbm, ⟨56, _⟩ => ⟨S625000, .i1⟩
  | .hbm, ⟨57, _⟩ => ⟨S_, .i32⟩
  | .hbm, ⟨58, _⟩ => ⟨S625000, .i32⟩
  | .hbm, ⟨59, _⟩ => ⟨S625000, .i32⟩
  | .hbm, ⟨60, _⟩ => ⟨S625000, .i32⟩
  | .hbm, ⟨61, _⟩ => ⟨S625000x1, .i32⟩
  | .hbm, ⟨62, _⟩ => ⟨S625000x128, .f32⟩
  | .hbm, ⟨63, _⟩ => ⟨S_, .i32⟩
  | .hbm, ⟨64, _⟩ => ⟨S625000, .i32⟩
  | .hbm, ⟨65, _⟩ => ⟨S625000, .i1⟩
  | .hbm, ⟨66, _⟩ => ⟨S_, .i32⟩
  | .hbm, ⟨67, _⟩ => ⟨S625000, .i32⟩
  | .hbm, ⟨68, _⟩ => ⟨S625000, .i32⟩
  | .hbm, ⟨69, _⟩ => ⟨S625000, .i32⟩
  | .hbm, ⟨70, _⟩ => ⟨S625000x1, .i32⟩
  | .hbm, ⟨71, _⟩ => ⟨S625000x128, .f32⟩
  | .hbm, ⟨72, _⟩ => ⟨S625000x128, .f32⟩
  | .hbm, ⟨73, _⟩ => ⟨S_, .f32⟩
  | .hbm, ⟨74, _⟩ => ⟨S625000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_v27 : Ref sig .tc := ⟨.hbm, 50, rfl⟩
abbrev main_cst_1 : Ref sig .tc := ⟨.hbm, 51, rfl⟩
abbrev main_v28 : Ref sig .tc := ⟨.hbm, 52, rfl⟩
abbrev main_v29 : Ref sig .tc := ⟨.hbm, 53, rfl⟩
abbrev main_c_2 : Ref sig .tc := ⟨.hbm, 54, rfl⟩
abbrev main_v30 : Ref sig .tc := ⟨.hbm, 55, rfl⟩
abbrev main_v31 : Ref sig .tc := ⟨.hbm, 56, rfl⟩
abbrev main_c_3 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_4 : Ref sig .tc := ⟨.hbm, 63, rfl⟩
abbrev main_v37 : Ref sig .tc := ⟨.hbm, 64, rfl⟩
abbrev main_v38 : Ref sig .tc := ⟨.hbm, 65, rfl⟩
abbrev main_c_5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S625000x1_S625000x128_0_1 : S625000x1.BroadcastsInDim S625000x128 (![0, 1] : Fin 2 → Fin S625000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S625000x128_S625000_d1 : S625000x128.ReducesTo [1] S625000
  h_S_ : 0 < S_.numel
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S100000x128_S128x128_S100000x128_1_0_0_1_n_n_wf : DotDims.WF S100000x128 S128x128 S100000x128 [1] [0] [0] [1] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

/-!
The encoder, entry by entry, on the extended reals.

From the aggregated node features `P` (one row of 128 numbers per node) the encoder has two linear
heads. A head with weight matrix `W` (stored as in a torch `Linear`: row `c` holds the weights of
output column `c`) and bias `B` has, at node `r` and column `c`, the value

  `Σ_k P[r, k] · W[c, k] + B[c]`.

The first head is the location `loc`. The second one goes through a softplus and a small shift:
`std = softplus(head) + ε`, where the softplus is computed in the numerically stable form
`max(y, 0) + log(1 + exp(-|y|))`.

Both programs spell the softplus with a guard `y - 0 ≠ y - 0` that selects `y + 0`; on the extended
reals no number differs from itself, so the guard never fires. One program writes `0 - |y|` where the
other writes `-|y|`; these are the same extended real.
-/

noncomputable section

namespace Cert.Encoder

open Idealize.ShloMosaic Idealize.ShloMosaic.ValueIdx

/-- A linear head at node `r`, column `c`: `Σ_k P[r, k] · W[c, k] + B[c]`. -/
def headAt (P : (⟨2, ![100000, 128]⟩ : Shape).Idx → EReal) (W : (⟨2, ![128, 128]⟩ : Shape).Idx → EReal)
    (B : (⟨1, ![128]⟩ : Shape).Idx → EReal) (r : Fin 100000) (c : Fin 128) : EReal :=
  (∑ k : Fin 128, P (ix2 r k) * W (ix2 c k)) + B (ix1 c)

/-- The head as an array of shape [100000, 128]. -/
def head (P : (⟨2, ![100000, 128]⟩ : Shape).Idx → EReal) (W : (⟨2, ![128, 128]⟩ : Shape).Idx → EReal)
    (B : (⟨1, ![128]⟩ : Shape).Idx → EReal) : (⟨2, ![100000, 128]⟩ : Shape).Idx → EReal :=
  fun i => headAt P W B (i 0) (i 1)

/-- `softplus y + ε` in its stable form, `max(y, 0) + log(1 + exp(-|y|)) + ε`, with `ε` the
    single-precision number nearest to `1e-10` and `|y| = max(y, -y)`. -/
def softplusEps (y : EReal) : EReal :=
  (max y 0 + Ideal.log1p (Ideal.exp (-(max y (-y))))) + Ideal.ofBits .f32 0x2EDBE6FF#32

/-- The second head after the softplus and the shift. -/
def stdOf (P : (⟨2, ![100000, 128]⟩ : Shape).Idx → EReal) (W : (⟨2, ![128, 128]⟩ : Shape).Idx → EReal)
    (B : (⟨1, ![128]⟩ : Shape).Idx → EReal) : (⟨2, ![100000, 128]⟩ : Shape).Idx → EReal :=
  fun i => softplusEps (headAt P W B (i 0) (i 1))

/-- No extended real differs from itself (ordered spelling of the guard). -/
theorem cmp_one_self (y : EReal) : Ideal.cmp .one y y = 0#1 := by simp [Ideal.cmp]

/-- No extended real differs from itself (unordered spelling of the guard). -/
theorem cmp_une_self (y : EReal) : Ideal.cmp .une y y = 0#1 := by simp [Ideal.cmp]

/-- The softplus as one program spells it: the guard on `y - 0`, the exponent written `0 - |y - 0|`. -/
theorem softplus_sub_form (y : EReal) :
    Scalar.select (Ideal.cmp .one (y - Ideal.ofBits .f32 0x00000000#32) (y - Ideal.ofBits .f32 0x00000000#32))
        (y + Ideal.ofBits .f32 0x00000000#32)
        (max y (Ideal.ofBits .f32 0x00000000#32)
          + Ideal.log1p (Ideal.exp (Ideal.ofBits .f32 0x00000000#32
              - max (y - Ideal.ofBits .f32 0x00000000#32) (-(y - Ideal.ofBits .f32 0x00000000#32)))))
      + Ideal.ofBits .f32 0x2EDBE6FF#32 = softplusEps y := by
  rw [cmp_one_self, select_zero, Ideal.ofBits_zero_f32, sub_zero, zero_sub]
  rfl

/-- The softplus as the other program spells it: the guard on `y - 0`, the exponent written `-|y - 0|`. -/
theorem softplus_neg_form (y : EReal) :
    Scalar.select (Ideal.cmp .une (y - Ideal.ofBits .f32 0x00000000#32) (y - Ideal.ofBits .f32 0x00000000#32))
        (y + Ideal.ofBits .f32 0x00000000#32)
        (max y (Ideal.ofBits .f32 0x00000000#32)
          + Ideal.log1p (Ideal.exp (-(max (y - Ideal.ofBits .f32 0x00000000#32) (-(y - Ideal.ofBits .f32 0x00000000#32))))))
      + Ideal.ofBits .f32 0x2EDBE6FF#32 = softplusEps y := by
  rw [cmp_une_self, select_zero, Ideal.ofBits_zero_f32, sub_zero]
  rfl

/-- The same, over the host's operation names: the host's absolute value, negation, exponential and
    `log(1 + ·)` are the extended reals' own. -/
theorem softplus_host_form (y : Ideal .f32) :
    FloatOps.addf
      (Scalar.select
        (FloatOps.cmpf .une (FloatOps.subf y (FloatOps.ofBits .f32 0x00000000#32)) (FloatOps.subf y (FloatOps.ofBits .f32 0x00000000#32)))
        (FloatOps.addf y (FloatOps.ofBits .f32 0x00000000#32))
        (FloatOps.addf (FloatOps.maximumf y (FloatOps.ofBits .f32 0x00000000#32))
          (FloatOps.hostUnary .log1p (FloatOps.hostUnary .exp (FloatOps.hostNegf (FloatOps.hostAbsf
            (FloatOps.subf y (FloatOps.ofBits .f32 0x00000000#32))))))))
      (FloatOps.ofBits .f32 0x2EDBE6FF#32) = softplusEps y := by
  simp only [Ideal.addf_def, Ideal.subf_def, Ideal.maximumf_def, Ideal.hostUnary_log1p_def, Ideal.hostUnary_exp_def,
    Ideal.hostNegf_def, Ideal.hostAbsf_def, Ideal.negf_def, Ideal.absf_def, Ideal.cmpf_def, Ideal.ofBits_def]
  exact softplus_neg_form y

end Cert.Encoder

end
-- ==== Proof.KStages.lean ====
import proofs.«157036_j51496657879185_2_alg».proof.Proof.Gen.KernelIdeal

/-!
The host-side stages of the program that are shared, operation for operation, with the reference:

* `ptrK`: the message-passing stage. For every edge `e` the row `emb[src e]` is scaled by `edge_norm e`,
  and the scaled rows are summed into the row of the edge's target node: a gather, a product and a
  scatter-add, an array of shape [100000, 128].
* `tailK`: the decoder. For every edge the two rows `L[src e]` and `L[tgt e]` of a [100000, 128] array
  `L` are multiplied entry by entry and summed over the 128 columns.

Both are kept as single functions of their array arguments and are never opened: the two programs
apply them to equal arguments.
-/

noncomputable section

namespace Cert.KernelIdeal.Stages

open Cert.KernelIdeal Cert.KernelIdeal.Gen Idealize.ShloMosaic

variable {F : FTy → Type} [FloatOps F]

/-- Gather, scale and scatter-add: `ptr[n, :] = Σ_{e : tgt e = n} emb[src e, :] · edge_norm e`. -/
def ptrK (x0 : (⟨S100000x128, .f32⟩ : BufTy).Contents (Elt F)) (x1 : (⟨S2x625000, .i32⟩ : BufTy).Contents (Elt F))
    (x2 : (⟨S625000, .f32⟩ : BufTy).Contents (Elt F)) : (⟨S100000x128, .f32⟩ : BufTy).Contents (Elt F) :=
  Host.scatterAdd scatter_S100000x128_S625000x1_S625000x128_1_0_0_1 (broadcastInDim S100000x128 ![] bcast_S_S100000x128 (constant S_ .f32 0x00000000#32)) (broadcastInDim S625000x1 ![0] bcast_S625000_S625000x1_0 (shapeCast _ (extractStridedSlice S1x625000 ![1, 0] x1 slices_S2x625000_S1x625000_1_0) shapeCasts_S1x625000_S625000)) (mulf (Host.gather gather_S100000x128_S625000x1_S625000x128_1_0_n_n_0_1_1128 x0 (broadcastInDim S625000x1 ![0] bcast_S625000_S625000x1_0 (select (cmpi .slt (shapeCast _ (extractStridedSlice S1x625000 ![0, 0] x1 slices_S2x625000_S1x625000_0_0) shapeCasts_S1x625000_S625000) (broadcastInDim S625000 ![] bcast_S_S625000 (constantI S_ 32 0#32))) (addi (shapeCast _ (extractStridedSlice S1x625000 ![0, 0] x1 slices_S2x625000_S1x625000_0_0) shapeCasts_S1x625000_S625000) (broadcastInDim S625000 ![] bcast_S_S625000 (constantI S_ 32 100000#32))) (shapeCast _ (extractStridedSlice S1x625000 ![0, 0] x1 slices_S2x625000_S1x625000_0_0) shapeCasts_S1x625000_S625000)))) (broadcastInDim S625000x128 ![0, 1] bcast_S625000x1_S625000x128_0_1 (broadcastInDim S625000x1 ![0] bcast_S625000_S625000x1_0 x2)))

/-- Row 0 of `edge_index`: the source node of every edge. -/
def srcK (x1 : (⟨S2x625000, .i32⟩ : BufTy).Contents (Elt F)) : (⟨S625000, .i32⟩ : BufTy).Contents (Elt F) :=
  shapeCast _ (extractStridedSlice S1x625000 ![0, 0] x1 slices_S2x625000_S1x625000_0_0) shapeCasts_S1x625000_S625000

/-- Row 1 of `edge_index`: the target node of every edge. -/
def tgtK (x1 : (⟨S2x625000, .i32⟩ : BufTy).Contents (Elt F)) : (⟨S625000, .i32⟩ : BufTy).Contents (Elt F) :=
  shapeCast _ (extractStridedSlice S1x625000 ![1, 0] x1 slices_S2x625000_S1x625000_1_0) shapeCasts_S1x625000_S625000

/-- The decoder over two index vectors `s`, `t`: `logits e = Σ_j L[s e, j] · L[t e, j]` (a negative index
    counts from the end, as in numpy). -/
def decodeK (L : (⟨S100000x128, .f32⟩ : BufTy).Contents (Elt F)) (s t : (⟨S625000, .i32⟩ : BufTy).Contents (Elt F)) :
    (⟨S625000, .f32⟩ : BufTy).Contents (Elt F) :=
  Host.reduceAdd (mulf (Host.gather gather_S100000x128_S625000x1_S625000x128_1_0_n_n_0_1_1128 L (broadcastInDim S625000x1 ![0] bcast_S625000_S625000x1_0 (select (cmpi .slt s (broadcastInDim S625000 ![] bcast_S_S625000 (constantI S_ 32 0#32))) (addi s (broadcastInDim S625000 ![] bcast_S_S625000 (constantI S_ 32 100000#32))) s))) (Host.gather gather_S100000x128_S625000x1_S625000x128_1_0_n_n_0_1_1128 L (broadcastInDim S625000x1 ![0] bcast_S625000_S625000x1_0 (select (cmpi .slt t (broadcastInDim S625000 ![] bcast_S_S625000 (constantI S_ 32 0#32))) (addi t (broadcastInDim S625000 ![] bcast_S_S625000 (constantI S_ 32 100000#32))) t)))) (constant S_ .f32 0x00000000#32) reducesTo_S625000x128_S625000_d1 h_S_

/-- The edge logits of an embedding `L`: `logits e = Σ_j L[src e, j] · L[tgt e, j]`. -/
def tailK (L : (⟨S100000x128, .f32⟩ : BufTy).Contents (Elt F)) (x1 : (⟨S2x625000, .i32⟩ : BufTy).Contents (Elt F)) :
    (⟨S625000, .f32⟩ : BufTy).Contents (Elt F) :=
  decodeK L (srcK x1) (tgtK x1)

end Cert.KernelIdeal.Stages

end
-- ==== Proof.KEntry.lean ====
import proofs.«157036_j51496657879185_2_alg».proof.Proof.Gen.KernelIdeal.Frame
import proofs.«157036_j51496657879185_2_alg».proof.Proof.KStages
import Idealize.ShloMosaic.Lib.StableHlo.Run
import Idealize.ShloMosaic.Lib.Pipeline.Value
import Idealize.ShloMosaic.Lib.ValueIdx
import Idealize.ShloMosaic.PureOps.Ideal

/-!
What the kernel's input windows find in their arrays when the region is entered, in terms of the
program's arguments:

* the aggregated features are the message-passing stage of `emb`, `edge_index` and `edge_norm`;
* each weight window holds the transposed weight matrix (the change of format is the identity on the
  extended reals): entry `[k, q]` is `w[q, k]`;
* each bias window holds the bias as a row: entry `[0, q]` is `b[q]`;
* the two index vectors the decoder reads later are rows 0 and 1 of `edge_index`.
-/

noncomputable section

namespace Cert.KernelIdeal.Entry

open Cert.KernelIdeal Cert.KernelIdeal.Gen Cert.KernelIdeal.Stages Idealize.ShloMosaic Idealize.ShloMosaic.TcCoe
open Idealize.SL.Sem Idealize.ShloMosaic.StableHlo Idealize.ShloMosaic.ValueIdx

variable (m : (ℓ : Loc nD τ sig) → Buf (Elt Ideal) ℓ)

set_option maxHeartbeats 4000000 in
/-- The features window's array is the message-passing stage of the arguments. -/
theorem V_ptr (c : Dev nD) :
    (V m c main_v16 : S100000x128.Idx → EReal)
      = ptrK (F := Ideal) (m ((c : Thread nD τ).loc main_arg0)) (m ((c : Thread nD τ).loc main_arg1)) (m ((c : Thread nD τ).loc main_arg2)) := by
  unfold ptrK
  show StableHlo.after hostOps0 (fun b => m (c, b)) (Proc.devRef .tc main_v16) = _
  after_results_simp <;> rfl

/-- A transposed weight matrix read at `[k, q]` is the matrix at `[q, k]`. -/
theorem transposed_at (w : S128x128.Idx → EReal) (k q : Fin 128) :
    (truncf (F := Ideal) .bf16 (transpose S128x128 [1, 0] w transposes_S128x128_S128x128_1_0) bitsLt_bf16_f32) (ix2 k q) = w (ix2 q k) :=
  transpose_apply [1, 0] w transposes_S128x128_S128x128_1_0 (ix2 k q) (ix2 q k) (fun b => match b with
    | ⟨0, _⟩ => rfl
    | ⟨1, _⟩ => rfl)

/-- A bias viewed as a row, read at `[0, q]`, is the bias at `q`. -/
theorem row_at (b : S128.Idx → EReal) (q : Fin 128) :
    (shapeCast S1x128 b shapeCasts_S128_S1x128) (ix2 0 q) = b (ix1 q) :=
  shapeCast_apply b shapeCasts_S128_S1x128 (ix2 0 q) (ix1 q)
    (by rewrite [Shape.rowMajor_val_two, Shape.rowMajor_val_one]; show q.val = 0 * 128 + q.val; omega)

/-- The first weight window at `[k, q]` is `loc_w[q, k]`. -/
theorem V_w_loc (c : Dev nD) (k q : Fin 128) :
    (V m c main_v18 : S128x128.Idx → EReal) (ix2 k q) = (m ((c : Thread nD τ).loc main_arg3) : S128x128.Idx → EReal) (ix2 q k) := by
  have e : (V m c main_v18 : S128x128.Idx → EReal)
      = truncf (F := Ideal) .bf16 (transpose S128x128 [1, 0] (m ((c : Thread nD τ).loc main_arg3)) transposes_S128x128_S128x128_1_0) bitsLt_bf16_f32 := by
    show StableHlo.after hostOps0 (fun b => m (c, b)) (Proc.devRef .tc main_v18) = _
    after_results_simp <;> rfl
  rw [e]
  exact transposed_at _ k q

/-- The second weight window at `[k, q]` is `std_w[q, k]`. -/
theorem V_w_std (c : Dev nD) (k q : Fin 128) :
    (V m c main_v20 : S128x128.Idx → EReal) (ix2 k q) = (m ((c : Thread nD τ).loc main_arg5) : S128x128.Idx → EReal) (ix2 q k) := by
  have e : (V m c main_v20 : S128x128.Idx → EReal)
      = truncf (F := Ideal) .bf16 (transpose S128x128 [1, 0] (m ((c : Thread nD τ).loc main_arg5)) transposes_S128x128_S128x128_1_0) bitsLt_bf16_f32 := by
    show StableHlo.after hostOps0 (fun b => m (c, b)) (Proc.devRef .tc main_v20) = _
    after_results_simp <;> rfl
  rw [e]
  exact transposed_at _ k q

/-- The first bias window at `[0, q]` is `loc_b[q]`. -/
theorem V_b_loc (c : Dev nD) (q : Fin 128) :
    (V m c main_v21 : S1x128.Idx → EReal) (ix2 0 q) = (m ((c : Thread nD τ).loc main_arg4) : S128.Idx → EReal) (ix1 q) := by
  have e : (V m c main_v21 : S1x128.Idx → EReal) = shapeCast S1x128 (m ((c : Thread nD τ).loc main_arg4)) shapeCasts_S128_S1x128 := by
    show StableHlo.after hostOps0 (fun b => m (c, b)) (Proc.devRef .tc main_v21) = _
    after_results_simp <;> rfl
  rw [e]
  exact row_at _ q

/-- The second bias window at `[0, q]` is `std_b[q]`. -/
theorem V_b_std (c : Dev nD) (q : Fin 128) :
    (V m c main_v22 : S1x128.Idx → EReal) (ix2 0 q) = (m ((c : Thread nD τ).loc main_arg6) : S128.Idx → EReal) (ix1 q) := by
  have e : (V m c main_v22 : S1x128.Idx → EReal) = shapeCast S1x128 (m ((c : Thread nD τ).loc main_arg6)) shapeCasts_S128_S1x128 := by
    show StableHlo.after hostOps0 (fun b => m (c, b)) (Proc.devRef .tc main_v22) = _
    after_results_simp <;> rfl
  rw [e]
  exact row_at _ q

end Cert.KernelIdeal.Entry

end
-- ==== Proof.KBody.lean ====
import proofs.«157036_j51496657879185_2_alg».proof.Proof.Gen.KernelIdeal.Skeleton
import proofs.«157036_j51496657879185_2_alg».proof.Proof.Spec
import Idealize.ShloMosaic.Lib.Pipeline.Value
import Idealize.ShloMosaic.Lib.ValueIdx
import Idealize.ShloMosaic.PureOps.Ideal.Laws

/-!
What the kernel body stores, entry by entry, on the extended reals.

At one grid point the body holds a block `x` of 10000 rows of the aggregated features, the two
weight matrices `w` already transposed (row `k` holds the weights of input column `k`) and the two
biases as rows `b` of shape [1, 128]. It stores

* `x · w + b` for the first head: at row `p`, column `q` the number `Σ_k x[p, k] · w[k, q] + b[0, q]`
  (the rounding of `x` to a shorter format on the way into the product changes nothing here, and a
  product accumulated into zero is the plain sum);
* the softplus of the same expression for the second head, shifted by `ε`.
-/

noncomputable section

namespace Cert.KernelIdeal.Body

open Cert.KernelIdeal Cert.KernelIdeal.Gen Idealize.ShloMosaic Idealize.ShloMosaic.ValueIdx

/-- The dimension numbers of the body's two products: rows by columns, one contracted axis of length 128. -/
abbrev dotK := dot_S10000x128_S128x128_S10000x128_1_0_0_1_n_n

theorem lhs0 (i : S10000x128.Idx) (q : dotK.contr.Idx) : (dotK.lhsIdx i q 0).val = (i 0).val := by
  unfold DotDims.lhsIdx
  rw [dif_neg (show ¬(0 : Fin S10000x128.rank) ∈ dotK.lhsBatch by decide),
    dif_pos (show (0 : Fin S10000x128.rank) ∈ dotK.lhsNonContracting by decide)]
  rfl
theorem lhs1 (i : S10000x128.Idx) (q : dotK.contr.Idx) : (dotK.lhsIdx i q 1).val = (q ⟨0, by decide⟩).val :=
  dotK.lhsIdx_val_of_single rfl i q
theorem rhs0 (i : S10000x128.Idx) (q : dotK.contr.Idx) : (dotK.rhsIdx i q 0).val = (q ⟨0, by decide⟩).val :=
  dotK.rhsIdx_val_of_single rfl i q
theorem rhs1 (i : S10000x128.Idx) (q : dotK.contr.Idx) : (dotK.rhsIdx i q 1).val = (i 1).val := by
  unfold DotDims.rhsIdx
  rw [dif_neg (show ¬(1 : Fin S128x128.rank) ∈ dotK.rhsBatch by decide),
    dif_pos (show (1 : Fin S128x128.rank) ∈ dotK.rhsNonContracting by decide)]
  rfl

/-- A product accumulated into zero, at row `p` and column `q`: `Σ_k l[p, k] · r[k, q]`. -/
theorem matmul_at (l : FVec Ideal S10000x128 .bf16) (r : FVec Ideal S128x128 .bf16) (p : Fin 10000) (q : Fin 128) :
    matmul dotK none l r (constant S10000x128 .f32 0x00000000#32) (ix2 p q) = ∑ k : Fin 128, l (ix2 p k) * r (ix2 k q) := by
  simp only [matmul]
  rw [Ideal.matmul_constant_zero_apply, ← Equiv.sum_comp (contrEquiv1 dotK 128 rfl rfl).symm]
  refine Finset.sum_congr rfl fun k _ => ?_
  have hk := contrEquiv1_symm_val dotK 128 rfl rfl k
  have el : dotK.lhsIdx (ix2 p q) ((contrEquiv1 dotK 128 rfl rfl).symm k) = ix2 p k := funext fun a => Fin.ext (by
    match a with
    | ⟨0, _⟩ => exact lhs0 _ _
    | ⟨1, _⟩ => exact (lhs1 _ _).trans hk)
  have er : dotK.rhsIdx (ix2 p q) ((contrEquiv1 dotK 128 rfl rfl).symm k) = ix2 k q := funext fun a => Fin.ext (by
    match a with
    | ⟨0, _⟩ => exact (rhs0 _ _).trans hk
    | ⟨1, _⟩ => exact rhs1 _ _)
  rw [el, er]

/-- The bias row repeated down the block: at row `p`, column `q` it is `b[0, q]`. -/
theorem bias_at (v : FVec Ideal S1x128 .f32) (p : Fin 10000) (q : Fin 128) :
    broadcastTo S10000x128 v broadcasts_S1x128_S10000x128 (ix2 p q) = v (ix2 0 q) :=
  broadcastTo_apply v broadcasts_S1x128_S10000x128 (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- One head before any softplus: `Σ_k x[p, k] · w[k, q] + b[0, q]`. -/
theorem affine_at (x : FVec Ideal S10000x128 .bf16) (w : FVec Ideal S128x128 .bf16) (b : FVec Ideal S1x128 .f32)
    (p : Fin 10000) (q : Fin 128) :
    addf (matmul dotK none x w (constant S10000x128 .f32 0x00000000#32)) (broadcastTo S10000x128 b broadcasts_S1x128_S10000x128) (ix2 p q)
      = (∑ k : Fin 128, x (ix2 p k) * w (ix2 k q)) + b (ix2 0 q) :=
  (addf_apply _ _ _).trans (congrArg₂ (· + ·) (matmul_at x w p q) (bias_at b p q))

/-- The value stored for the first head. -/
theorem pay2_at (x0 : Vec Ideal S10000x128 .f32) (x1 : Vec Ideal S128x128 .bf16) (x2 : Vec Ideal S1x128 .f32)
    (p : Fin 10000) (q : Fin 128) :
    k0_pay2 x0 x1 x2 (ix2 p q) = (∑ k : Fin 128, x0 (ix2 p k) * x1 (ix2 k q)) + x2 (ix2 0 q) := by
  unfold k0_pay2 k0_pay1
  simp only [shapeCast_self]
  exact affine_at _ _ _ p q

/-- The value stored for the second head: the softplus of the same expression, shifted by `ε`. -/
theorem pay3_at (x0 : Vec Ideal S10000x128 .f32) (x5 : Vec Ideal S128x128 .bf16) (x13 : Vec Ideal S1x128 .f32)
    (p : Fin 10000) (q : Fin 128) :
    k0_pay3 x0 x5 x13 (ix2 p q)
      = Cert.Encoder.softplusEps ((∑ k : Fin 128, x0 (ix2 p k) * x5 (ix2 k q)) + x13 (ix2 0 q)) := by
  unfold k0_pay3 k0_pay1
  simp only [shapeCast_self]
  refine Eq.trans ?_ (congrArg Cert.Encoder.softplusEps (affine_at _ _ _ p q))
  exact Cert.Encoder.softplus_sub_form _

end Cert.KernelIdeal.Body

end
-- ==== Proof.KBlocks.lean ====
import proofs.«157036_j51496657879185_2_alg».proof.Proof.Gen.KernelIdeal.Frame
import proofs.«157036_j51496657879185_2_alg».proof.Proof.KBody
import proofs.«157036_j51496657879185_2_alg».proof.Proof.Spec
import Idealize.ShloMosaic.Lib.Pipeline.Value
import Idealize.ShloMosaic.Lib.ValueIdx

/-!
From blocks to arrays.

The grid has ten points. Point `t` reads rows `10000·t … 10000·t + 9999` of the aggregated features,
the whole of both (transposed) weight matrices and both bias rows, and writes the same rows of the
two outputs. What it writes is, entry by entry, a function of the arrays that does not mention the
point: row `r`, column `q` of the first output is `Σ_k P[r, k] · W[k, q] + B[0, q]`, and of the second
output the softplus of the same expression with the second weights and bias, shifted by `ε`. The ten
blocks of rows cover all 100000 rows, so after the run each output array is that function.
-/

noncomputable section

namespace Cert.KernelIdeal.Final

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem offsets_zero : (![0, 0] : Fin 2 → Nat) = fun _ => 0 := funext fun a => by fin_cases a <;> rfl

/-- One head in the kernel's layout, at row `r` and column `q`: `Σ_k P[r, k] · W[k, q] + B[0, q]`. -/
def affineAt (P : S100000x128.Idx → EReal) (W : S128x128.Idx → EReal) (B : S1x128.Idx → EReal)
    (r : Fin 100000) (q : Fin 128) : EReal :=
  (∑ k : Fin 128, P (ix2 r k) * W (ix2 k q)) + B (ix2 0 q)

/-- The first output as a whole array. -/
def locArr (P : S100000x128.Idx → EReal) (W : S128x128.Idx → EReal) (B : S1x128.Idx → EReal) : S100000x128.Idx → EReal :=
  fun i => affineAt P W B (i 0) (i 1)

/-- The second output as a whole array. -/
def stdArr (P : S100000x128.Idx → EReal) (W : S128x128.Idx → EReal) (B : S1x128.Idx → EReal) : S100000x128.Idx → EReal :=
  fun i => Cert.Encoder.softplusEps (affineAt P W B (i 0) (i 1))

/-- If a block `x0` holds the rows of `P` around row `i 0`, and `x1`, `x2` are `W` and `B`, the value stored
    for the first head at `j` is the first output's entry at `i`. -/
theorem stored_loc (P : S100000x128.Idx → EReal) (W : S128x128.Idx → EReal) (B : S1x128.Idx → EReal)
    (x0 : S10000x128.Idx → EReal) (x1 : S128x128.Idx → EReal) (x2 : S1x128.Idx → EReal)
    (j : S10000x128.Idx) (i : S100000x128.Idx)
    (h0 : ∀ k : Fin 128, x0 (ix2 (j 0) k) = P (ix2 (i 0) k)) (h1 : ∀ k : Fin 128, x1 (ix2 k (j 1)) = W (ix2 k (i 1)))
    (h2 : x2 (ix2 0 (j 1)) = B (ix2 0 (i 1))) :
    k0_pay2 (F := Ideal) x0 x1 x2 j = locArr P W B i := by
  obtain ⟨p, q, rfl⟩ : ∃ (p : Fin 10000) (q : Fin 128), j = ix2 p q := ⟨j 0, j 1, eq_ix2 j⟩
  refine (Body.pay2_at x0 x1 x2 p q).trans ?_
  exact congrArg₂ (· + ·) (Finset.sum_congr rfl fun k _ => congrArg₂ (· * ·) (h0 k) (h1 k)) h2

/-- The same for the second head. -/
theorem stored_std (P : S100000x128.Idx → EReal) (W : S128x128.Idx → EReal) (B : S1x128.Idx → EReal)
    (x0 : S10000x128.Idx → EReal) (x1 : S128x128.Idx → EReal) (x2 : S1x128.Idx → EReal)
    (j : S10000x128.Idx) (i : S100000x128.Idx)
    (h0 : ∀ k : Fin 128, x0 (ix2 (j 0) k) = P (ix2 (i 0) k)) (h1 : ∀ k : Fin 128, x1 (ix2 k (j 1)) = W (ix2 k (i 1)))
    (h2 : x2 (ix2 0 (j 1)) = B (ix2 0 (i 1))) :
    k0_pay3 (F := Ideal) x0 x1 x2 j = stdArr P W B i := by
  obtain ⟨p, q, rfl⟩ : ∃ (p : Fin 10000) (q : Fin 128), j = ix2 p q := ⟨j 0, j 1, eq_ix2 j⟩
  refine (Body.pay3_at x0 x1 x2 p q).trans ?_
  exact congrArg Cert.Encoder.softplusEps
    (congrArg₂ (· + ·) (Finset.sum_congr rfl fun k _ => congrArg₂ (· * ·) (h0 k) (h1 k)) h2)

/-- The printed index maps over the ten points: the features window and both output windows sit at block row
    `t`; every other block index is zero. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

end Cert.KernelIdeal.Final

end
-- ==== Proof.KFinalLoc.lean ====
import proofs.«157036_j51496657879185_2_alg».proof.Proof.Gen.KernelIdeal.Frame
import proofs.«157036_j51496657879185_2_alg».proof.Proof.KBlocks
import Idealize.ShloMosaic.Lib.Pipeline.Value
import Idealize.ShloMosaic.Lib.ValueIdx

/-!
The first output after the run: point `t` writes rows `10000·t … 10000·t + 9999`, each entry the linear
head of the arrays the region finds, and the ten blocks of rows cover the array.
-/

noncomputable section

namespace Cert.KernelIdeal.Final

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- What point `t` writes back to the first output is block `t` of `locArr` of the arrays the region finds. -/
theorem flushed_loc (c : Dev nD) (t : Fin cfg0.N) :
    (dats m 0 c).flushed 5 t
      = ((cfg0.win 5).blk t).view.read (Elt Ideal) (locArr (V m c main_v16) (V m c main_v18) (V m c main_v21)) := by
  show (cfg0.win 5).cut (grid0.coords t) ((dats m 0 c).after 5 t) = _
  rw [after0_5]
  unfold out0_5
  rw [View.canon_unit_zero offsets_zero]
  simp only [View.ld_unit_zero (S := S10000x128) offsets_zero, View.ld_unit_zero (S := S128x128) offsets_zero,
    View.ld_unit_zero (S := S1x128) offsets_zero]
  obtain ⟨a00, a01, a10, a11, a20, a21, -, -, -, -, a50, a51, -, -⟩ := index_facts t
  funext j
  show k0_pay2 (iblk m c 0 t) (iblk m c 1 t) (iblk m c 2 t) j
    = locArr (V m c main_v16) (V m c main_v18) (V m c main_v21) (((cfg0.win 5).blk t).view.emb j)
  refine stored_loc (V m c main_v16) (V m c main_v18) (V m c main_v21) (iblk m c 0 t) (iblk m c 1 t) (iblk m c 2 t) j
    (((cfg0.win 5).blk t).view.emb j) (fun k => ?_) (fun k => ?_) ?_
  · show V m c main_v16 (((cfg0.win 0).blk t).view.emb (ix2 (j 0) k)) = V m c main_v16 (ix2 ((((cfg0.win 5).blk t).view.emb j) 0) k)
    refine congrArg (V m c main_v16) (funext fun a => Fin.ext ?_)
    match a with
    | ⟨0, _⟩ => show win0_0.index t (0 : Fin 2) * 10000 + 1 * (j 0).val = win0_5.index t (0 : Fin 2) * 10000 + 1 * (j 0).val; omega
    | ⟨1, _⟩ => show win0_0.index t (1 : Fin 2) * 128 + 1 * k.val = k.val; omega
  · show V m c main_v18 (((cfg0.win 1).blk t).view.emb (ix2 k (j 1))) = V m c main_v18 (ix2 k ((((cfg0.win 5).blk t).view.emb j) 1))
    refine congrArg (V m c main_v18) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_5.index t (1 : Fin 2) * 128 + 1 * (j 1).val; omega
  · show V m c main_v21 (((cfg0.win 2).blk t).view.emb (ix2 0 (j 1))) = V m c main_v21 (ix2 0 ((((cfg0.win 5).blk t).view.emb j) 1))
    refine congrArg (V m c main_v21) (funext fun a => Fin.ext ?_)
    match a with
    | ⟨0, _⟩ => show win0_2.index t (0 : Fin 2) * 1 + 1 * 0 = 0; omega
    | ⟨1, _⟩ => show win0_2.index t (1 : Fin 2) * 128 + 1 * (j 1).val = win0_5.index t (1 : Fin 2) * 128 + 1 * (j 1).val; omega

/-- An index of the first output is in point `t`'s block iff each coordinate is in the block's range. -/
theorem mem_blk_loc (t : Fin cfg0.N) (i : S100000x128.Idx) :
    i ∈ ((cfg0.win 5).blk t).view.set ↔ ∀ a : Fin 2, win0_5.index t a * S10000x128.size a ≤ (i a).val
      ∧ (i a).val < win0_5.index t a * S10000x128.size a + S10000x128.size a := by
  show i ∈ ((View.whole main_v23_0).slice (win0_5.rect t)).set ↔ _
  rw [View.set_slice_whole, Rect.mem_set_unit]
  exact Iff.rfl

/-- Row `r` lies in the block of point `r / 10000`: the ten blocks cover the first output. -/
theorem cover_loc (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, by show _ < grid0.N; rw [N_0]; omega⟩, rfl⟩
  obtain ⟨-, -, -, -, -, -, -, -, -, -, a50, a51, -, -⟩ := index_facts t
  refine ⟨t, flush0_5 t, ?_⟩
  rw [mem_blk_loc]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 128 ≤ (i 1).val ∧ (i 1).val < win0_5.index t (1 : Fin 2) * 128 + 128; omega

/-- The first output after the run. -/
theorem final_loc (c : Dev nD) :
    (dats m 0 c).arrAt 5 cfg0.N = locArr (V m c main_v16) (V m c main_v18) (V m c main_v21) :=
  (dats m 0 c).arrAt_eq_of_cover 5 (locArr (V m c main_v16) (V m c main_v18) (V m c main_v21))
    (fun t _ => flushed_loc m c t) cover_loc

end Cert.KernelIdeal.Final

end
-- ==== Proof.KFinalStd.lean ====
import proofs.«157036_j51496657879185_2_alg».proof.Proof.Gen.KernelIdeal.Frame
import proofs.«157036_j51496657879185_2_alg».proof.Proof.KBlocks
import Idealize.ShloMosaic.Lib.Pipeline.Value
import Idealize.ShloMosaic.Lib.ValueIdx

/-!
The second output after the run: point `t` writes rows `10000·t … 10000·t + 9999`, each entry the shifted
softplus of the second head of the arrays the region finds, and the ten blocks of rows cover the array.
-/

noncomputable section

namespace Cert.KernelIdeal.Final

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- What point `t` writes back to the second output is block `t` of `stdArr` of the arrays the region finds. -/
theorem flushed_std (c : Dev nD) (t : Fin cfg0.N) :
    (dats m 0 c).flushed 6 t
      = ((cfg0.win 6).blk t).view.read (Elt Ideal) (stdArr (V m c main_v16) (V m c main_v20) (V m c main_v22)) := by
  show (cfg0.win 6).cut (grid0.coords t) ((dats m 0 c).after 6 t) = _
  rw [after0_6]
  unfold out0_6
  rw [View.canon_unit_zero offsets_zero]
  simp only [View.ld_unit_zero (S := S10000x128) offsets_zero, View.ld_unit_zero (S := S128x128) offsets_zero,
    View.ld_unit_zero (S := S1x128) offsets_zero]
  obtain ⟨a00, a01, -, -, -, -, a30, a31, a40, a41, -, -, a60, a61⟩ := index_facts t
  funext j
  show k0_pay3 (iblk m c 0 t) (iblk m c 3 t) (iblk m c 4 t) j
    = stdArr (V m c main_v16) (V m c main_v20) (V m c main_v22) (((cfg0.win 6).blk t).view.emb j)
  refine stored_std (V m c main_v16) (V m c main_v20) (V m c main_v22) (iblk m c 0 t) (iblk m c 3 t) (iblk m c 4 t) j
    (((cfg0.win 6).blk t).view.emb j) (fun k => ?_) (fun k => ?_) ?_
  · show V m c main_v16 (((cfg0.win 0).blk t).view.emb (ix2 (j 0) k)) = V m c main_v16 (ix2 ((((cfg0.win 6).blk t).view.emb j) 0) k)
    refine congrArg (V m c main_v16) (funext fun a => Fin.ext ?_)
    match a with
    | ⟨0, _⟩ => show win0_0.index t (0 : Fin 2) * 10000 + 1 * (j 0).val = win0_6.index t (0 : Fin 2) * 10000 + 1 * (j 0).val; omega
    | ⟨1, _⟩ => show win0_0.index t (1 : Fin 2) * 128 + 1 * k.val = k.val; omega
  · show V m c main_v20 (((cfg0.win 3).blk t).view.emb (ix2 k (j 1))) = V m c main_v20 (ix2 k ((((cfg0.win 6).blk t).view.emb j) 1))
    refine congrArg (V m c main_v20) (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_6.index t (1 : Fin 2) * 128 + 1 * (j 1).val; omega
  · show V m c main_v22 (((cfg0.win 4).blk t).view.emb (ix2 0 (j 1))) = V m c main_v22 (ix2 0 ((((cfg0.win 6).blk t).view.emb j) 1))
    refine congrArg (V m c main_v22) (funext fun a => Fin.ext ?_)
    match a with
    | ⟨0, _⟩ => show win0_4.index t (0 : Fin 2) * 1 + 1 * 0 = 0; omega
    | ⟨1, _⟩ => show win0_4.index t (1 : Fin 2) * 128 + 1 * (j 1).val = win0_6.index t (1 : Fin 2) * 128 + 1 * (j 1).val; omega

theorem mem_blk_std (t : Fin cfg0.N) (i : S100000x128.Idx) :
    i ∈ ((cfg0.win 6).blk t).view.set ↔ ∀ a : Fin 2, win0_6.index t a * S10000x128.size a ≤ (i a).val
      ∧ (i a).val < win0_6.index t a * S10000x128.size a + S10000x128.size a := by
  show i ∈ ((View.whole main_v23_1).slice (win0_6.rect t)).set ↔ _
  rw [View.set_slice_whole, Rect.mem_set_unit]
  exact Iff.rfl

/-- The ten blocks cover the second output. -/
theorem cover_std (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, by show _ < grid0.N; rw [N_0]; omega⟩, rfl⟩
  obtain ⟨-, -, -, -, -, -, -, -, -, -, -, -, a60, a61⟩ := index_facts t
  refine ⟨t, flush0_6 t, ?_⟩
  rw [mem_blk_std]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 128 ≤ (i 1).val ∧ (i 1).val < win0_6.index t (1 : Fin 2) * 128 + 128; omega

/-- The second output after the run. -/
theorem final_std (c : Dev nD) :
    (dats m 0 c).arrAt 6 cfg0.N = stdArr (V m c main_v16) (V m c main_v20) (V m c main_v22) :=
  (dats m 0 c).arrAt_eq_of_cover 6 (stdArr (V m c main_v16) (V m c main_v20) (V m c main_v22))
    (fun t _ => flushed_std m c t) cover_std

end Cert.KernelIdeal.Final

end
-- ==== Proof.KTail.lean ====
import proofs.«157036_j51496657879185_2_alg».proof.Proof.Gen.KernelIdeal.Frame
import proofs.«157036_j51496657879185_2_alg».proof.Proof.KStages
import Idealize.ShloMosaic.Lib.StableHlo.Run
import Idealize.ShloMosaic.Lib.Pipeline.Value
import Idealize.ShloMosaic.PureOps.Ideal

/-!
The decoder after the region.

The program's last result is computed by host operations that run after the kernel: they read the
first output as the pipeline left it, and the two rows of `edge_index` that were sliced out before
the region. So the last result is the decoder applied to the first output's final contents and to
those two rows.
-/

noncomputable section

namespace Cert.KernelIdeal.Tail

open Cert.KernelIdeal Cert.KernelIdeal.Gen Cert.KernelIdeal.Stages Idealize.ShloMosaic Idealize.ShloMosaic.TcCoe
open Idealize.SL.Sem Idealize.ShloMosaic.StableHlo

variable (m : (ℓ : Loc nD τ sig) → Buf (Elt Ideal) ℓ)

/-- After the region the first output's buffer holds what the pipeline left in it. -/
theorem arrays_loc (c : Dev nD) :
    Pipeline.withArrays (cfgs 0).spec c (V0 m c) (fun w => (dats m 0 c).arrAt w (cfgs 0).N) (Proc.devRef .tc main_v23_0)
      = (dats m 0 c).arrAt 5 cfg0.N :=
  Pipeline.withArrays_arr spec0 launch0.win.arr_inj c (V0 m c) (fun w => (dats m 0 c).arrAt w cfg0.N) 5

/-- The source row of `edge_index`, sliced out before the region, is untouched by it. -/
theorem kept_src (c : Dev nD) :
    Pipeline.withArrays (cfgs 0).spec c (V0 m c) (fun w => (dats m 0 c).arrAt w (cfgs 0).N) (Proc.devRef .tc main_v1)
      = srcK (F := Ideal) (m ((c : Thread nD τ).loc main_arg1)) := by
  rw [Pipeline.withArrays_of_ne _ c (V0 m c) _ main_v1 (by exact (by decide : ∀ w, Pipeline.arrRef spec0 w ≠ main_v1))]
  unfold srcK
  show StableHlo.after hostOps0 (fun b => m (c, b)) (Proc.devRef .tc main_v1) = _
  after_results_simp <;> rfl

/-- The target row of `edge_index`, sliced out before the region, is untouched by it. -/
theorem kept_tgt (c : Dev nD) :
    Pipeline.withArrays (cfgs 0).spec c (V0 m c) (fun w => (dats m 0 c).arrAt w (cfgs 0).N) (Proc.devRef .tc main_v3)
      = tgtK (F := Ideal) (m ((c : Thread nD τ).loc main_arg1)) := by
  rw [Pipeline.withArrays_of_ne _ c (V0 m c) _ main_v3 (by exact (by decide : ∀ w, Pipeline.arrRef spec0 w ≠ main_v3))]
  unfold tgtK
  show StableHlo.after hostOps0 (fun b => m (c, b)) (Proc.devRef .tc main_v3) = _
  after_results_simp <;> rfl

set_option maxHeartbeats 4000000 in
/-- The last result is the decoder of the first output's final contents and the edge list. -/
theorem tail_value (c : Dev nD) :
    (Pipeline.afterTail₀ cfgs (dats m) 0 (V0 m) [hostOps1] c main_v39 : S625000.Idx → EReal)
      = tailK (F := Ideal) ((dats m 0 c).arrAt 5 cfg0.N) (m ((c : Thread nD τ).loc main_arg1)) := by
  unfold Pipeline.afterTail₀
  show StableHlo.after hostOps1 _ (Proc.devRef .tc main_v39) = _
  after_results_simp
  rw [arrays_loc, kept_src, kept_tgt]
  rfl

end Cert.KernelIdeal.Tail

end
-- ==== Proof.KRun.lean ====
import proofs.«157036_j51496657879185_2_alg».proof.Proof.Gen.KernelIdeal.Frame
import proofs.«157036_j51496657879185_2_alg».proof.Proof.KStages
import proofs.«157036_j51496657879185_2_alg».proof.Proof.KEntry
import proofs.«157036_j51496657879185_2_alg».proof.Proof.KFinalLoc
import proofs.«157036_j51496657879185_2_alg».proof.Proof.KFinalStd
import proofs.«157036_j51496657879185_2_alg».proof.Proof.KTail
import proofs.«157036_j51496657879185_2_alg».proof.Proof.Spec

/-!
The idealized kernel's run, read in terms of the program's arguments.

With `P` the message-passing stage of `emb`, `edge_index`, `edge_norm`, the three results end at: the
linear head of `P` with `loc_w`, `loc_b`; the softplus of the head with `std_w`, `std_b`, shifted by
`ε`; and the decoder of the first result. The arguments end unchanged.
-/

noncomputable section

namespace Cert.KernelIdeal.Result

open Cert.KernelIdeal Cert.KernelIdeal.Gen Cert.KernelIdeal.Stages Idealize.ShloMosaic Idealize.ShloMosaic.TcCoe
open Idealize.SL.Sem Idealize.ShloMosaic.ValueIdx

variable (m : (ℓ : Loc nD τ sig) → Buf (Elt Ideal) ℓ) (ρ : Dev nD → PrngReg)

/-- The first output in the kernel's layout (weights transposed, bias as a row) is the linear head of the
    arguments: the transposed weight at `[k, q]` is the weight at `[q, k]`, the bias row at `[0, q]` the bias at `q`. -/
theorem loc_args (c : Dev nD) :
    Final.locArr (V m c main_v16) (V m c main_v18) (V m c main_v21)
      = Cert.Encoder.head (ptrK (F := Ideal) (m ((c : Thread nD τ).loc main_arg0)) (m ((c : Thread nD τ).loc main_arg1)) (m ((c : Thread nD τ).loc main_arg2))) (m ((c : Thread nD τ).loc main_arg3)) (m ((c : Thread nD τ).loc main_arg4)) := by
  funext i
  obtain ⟨r, q, rfl⟩ : ∃ (r : Fin 100000) (q : Fin 128), i = ix2 r q := ⟨i 0, i 1, eq_ix2 i⟩
  show Final.affineAt _ _ _ r q = Cert.Encoder.headAt _ _ _ r q
  unfold Final.affineAt Cert.Encoder.headAt
  exact congrArg₂ (· + ·)
    (Finset.sum_congr rfl fun k _ => congrArg₂ (· * ·) (congrFun (Entry.V_ptr m c) (ix2 r k)) (Entry.V_w_loc m c k q))
    (Entry.V_b_loc m c q)

/-- The same for the second output. -/
theorem std_args (c : Dev nD) :
    Final.stdArr (V m c main_v16) (V m c main_v20) (V m c main_v22)
      = Cert.Encoder.stdOf (ptrK (F := Ideal) (m ((c : Thread nD τ).loc main_arg0)) (m ((c : Thread nD τ).loc main_arg1)) (m ((c : Thread nD τ).loc main_arg2))) (m ((c : Thread nD τ).loc main_arg5)) (m ((c : Thread nD τ).loc main_arg6)) := by
  funext i
  obtain ⟨r, q, rfl⟩ : ∃ (r : Fin 100000) (q : Fin 128), i = ix2 r q := ⟨i 0, i 1, eq_ix2 i⟩
  show Cert.Encoder.softplusEps (Final.affineAt _ _ _ r q) = Cert.Encoder.softplusEps (Cert.Encoder.headAt _ _ _ r q)
  refine congrArg Cert.Encoder.softplusEps ?_
  unfold Final.affineAt Cert.Encoder.headAt
  exact congrArg₂ (· + ·)
    (Finset.sum_congr rfl fun k _ => congrArg₂ (· * ·) (congrFun (Entry.V_ptr m c) (ix2 r k)) (Entry.V_w_std m c k q))
    (Entry.V_b_std m c q)

/-- Every weakly fair execution of the idealized kernel terminates with its three results at these functions
    of the arguments, and the arguments unchanged. -/
theorem run : θ_run defs (onTc (τ := τ) (main (F := Ideal))) ⟨m, fun _ => 0, ρ⟩ fun r => ∀ c : Dev nD,
      r.2.mem ((c.tc : Thread nD τ).loc main_v23_0)
        = Cert.Encoder.head (ptrK (F := Ideal) (m ((c : Thread nD τ).loc main_arg0)) (m ((c : Thread nD τ).loc main_arg1)) (m ((c : Thread nD τ).loc main_arg2))) (m ((c : Thread nD τ).loc main_arg3)) (m ((c : Thread nD τ).loc main_arg4))
      ∧ r.2.mem ((c.tc : Thread nD τ).loc main_v23_1)
        = Cert.Encoder.stdOf (ptrK (F := Ideal) (m ((c : Thread nD τ).loc main_arg0)) (m ((c : Thread nD τ).loc main_arg1)) (m ((c : Thread nD τ).loc main_arg2))) (m ((c : Thread nD τ).loc main_arg5)) (m ((c : Thread nD τ).loc main_arg6))
      ∧ r.2.mem ((c.tc : Thread nD τ).loc main_v39)
        = tailK (F := Ideal) (Cert.Encoder.head (ptrK (F := Ideal) (m ((c : Thread nD τ).loc main_arg0)) (m ((c : Thread nD τ).loc main_arg1)) (m ((c : Thread nD τ).loc main_arg2))) (m ((c : Thread nD τ).loc main_arg3)) (m ((c : Thread nD τ).loc main_arg4))) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1 5).trans ((Final.final_loc m c).trans (loc_args m c)),
      ((h c).1 6).trans ((Final.final_std m c).trans (std_args m c)),
      ((h c).2 main_v39 (Pipeline.mem_restRefs_of main_v39 (by decide) (by decide))).trans
        ((Tail.tail_value m c).trans (congrArg (fun L => tailK (F := Ideal) L (m ((c : Thread nD τ).loc main_arg1))) ((Final.final_loc m c).trans (loc_args m c)))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Result

end
-- ==== Proof.RValue.lean ====
import proofs.«157036_j51496657879185_2_alg».proof.Proof.Gen.ReferenceIdeal.Read
import proofs.«157036_j51496657879185_2_alg».proof.Proof.Spec
import Idealize.ShloMosaic.Lib.ValueIdx
import Idealize.ShloMosaic.PureOps.Ideal.Laws

/-!
The reference, read entry by entry.

With `P` the message-passing stage of the arguments (kept as one array, never opened), the reference's
first result is the linear head of `P` with `loc_w`, `loc_b`; its second result is the softplus of the
head with `std_w`, `std_b`, shifted by `ε`; and its third result is the decoder applied to the first
result. The products with the transposed weights are sums over the 128 input columns, the biases are
repeated down the rows.
-/

noncomputable section

namespace Cert.ReferenceIdeal.RefValue

open Cert.ReferenceIdeal Cert.ReferenceIdeal.Gen Cert.ReferenceIdeal.Read Idealize.ShloMosaic Idealize.ShloMosaic.ValueIdx

variable {F : FTy → Type} [FloatOps F]

/-- The decoder as the reference spells it, of an embedding `L` and the edge list. -/
def tailR (L : (⟨S100000x128, .f32⟩ : BufTy).Contents (Elt F)) (x1 : (⟨S2x625000, .i32⟩ : BufTy).Contents (Elt F)) :
    (⟨S625000, .f32⟩ : BufTy).Contents (Elt F) :=
  Host.reduceAdd (mulf (Host.gather gather_S100000x128_S625000x1_S625000x128_1_0_n_n_0_1_1128 L (val_main_v35 (F := F) x1))
      (Host.gather gather_S100000x128_S625000x1_S625000x128_1_0_n_n_0_1_1128 L (val_main_v42 (F := F) x1)))
    (val_main_cst_6 (F := F)) reducesTo_S625000x128_S625000_d1 h_S_

/-- The third result is the decoder applied to the first result. -/
theorem logits_eq (x0 : (⟨S100000x128, .f32⟩ : BufTy).Contents (Elt F)) (x1 : (⟨S2x625000, .i32⟩ : BufTy).Contents (Elt F))
    (x2 : (⟨S625000, .f32⟩ : BufTy).Contents (Elt F)) (x3 : (⟨S128x128, .f32⟩ : BufTy).Contents (Elt F))
    (x4 : (⟨S128, .f32⟩ : BufTy).Contents (Elt F)) :
    val_main_v45 (F := F) x0 x1 x2 x3 x4 = tailR (val_main_v21 (F := F) x0 x1 x2 x3 x4) x1 := rfl

/-! The index maps of the two products and of the bias broadcasts, coordinate by coordinate. -/

theorem lidx18_eq (i : S100000x128.Idx) (k : Fin 128) : lidx_main_v18 i k = ix2 (i 0) k :=
  funext fun a => Fin.ext (by match a with | ⟨0, _⟩ => rfl | ⟨1, _⟩ => rfl)
theorem ridx18_eq (i : S100000x128.Idx) (k : Fin 128) : idx_main_v17 (ridx_main_v18 i k) = ix2 (i 1) k :=
  funext fun a => Fin.ext (by match a with | ⟨0, _⟩ => rfl | ⟨1, _⟩ => rfl)
theorem bias20_eq (i : S100000x128.Idx) : idx_main_v19 (idx_main_v20 i) = ix1 (i 1) :=
  funext fun a => Fin.ext (by match a with | ⟨0, _⟩ => rfl)
theorem lidx23_eq (i : S100000x128.Idx) (k : Fin 128) : lidx_main_v23 i k = ix2 (i 0) k :=
  funext fun a => Fin.ext (by match a with | ⟨0, _⟩ => rfl | ⟨1, _⟩ => rfl)
theorem ridx23_eq (i : S100000x128.Idx) (k : Fin 128) : idx_main_v22 (ridx_main_v23 i k) = ix2 (i 1) k :=
  funext fun a => Fin.ext (by match a with | ⟨0, _⟩ => rfl | ⟨1, _⟩ => rfl)
theorem bias25_eq (i : S100000x128.Idx) : idx_main_v24 (idx_main_v25 i) = ix1 (i 1) :=
  funext fun a => Fin.ext (by match a with | ⟨0, _⟩ => rfl)

/-- The first result is the linear head of the message-passing stage with `loc_w`, `loc_b`. -/
theorem loc_eq (x0 : (⟨S100000x128, .f32⟩ : BufTy).Contents (Elt Ideal)) (x1 : (⟨S2x625000, .i32⟩ : BufTy).Contents (Elt Ideal)) (x2 : (⟨S625000, .f32⟩ : BufTy).Contents (Elt Ideal))
    (x3 : (⟨S128x128, .f32⟩ : BufTy).Contents (Elt Ideal)) (x4 : (⟨S128, .f32⟩ : BufTy).Contents (Elt Ideal)) :
    val_main_v21 (F := Ideal) x0 x1 x2 x3 x4 = Cert.Encoder.head (val_main_v16 (F := Ideal) x0 x1 x2) x3 x4 := by
  funext i
  rw [val_main_v21_apply, val_main_v18_apply, val_main_v20_apply, val_main_v19_apply]
  simp only [val_main_v17_apply, lidx18_eq, ridx18_eq, bias20_eq]
  rfl

/-- The head under the softplus, at an entry. -/
theorem raw_std_at (x0 : (⟨S100000x128, .f32⟩ : BufTy).Contents (Elt Ideal)) (x1 : (⟨S2x625000, .i32⟩ : BufTy).Contents (Elt Ideal)) (x2 : (⟨S625000, .f32⟩ : BufTy).Contents (Elt Ideal))
    (x5 : (⟨S128x128, .f32⟩ : BufTy).Contents (Elt Ideal)) (x6 : (⟨S128, .f32⟩ : BufTy).Contents (Elt Ideal)) (i : S100000x128.Idx) :
    val_main_v26 (F := Ideal) x0 x1 x2 x5 x6 i = Cert.Encoder.headAt (val_main_v16 (F := Ideal) x0 x1 x2) x5 x6 (i 0) (i 1) := by
  rw [val_main_v26_apply, val_main_v23_apply, val_main_v25_apply, val_main_v24_apply]
  simp only [val_main_v22_apply, lidx23_eq, ridx23_eq, bias25_eq]
  rfl

/-- The second result is the softplus of the head with `std_w`, `std_b`, shifted by `ε`. -/
theorem std_eq (x0 : (⟨S100000x128, .f32⟩ : BufTy).Contents (Elt Ideal)) (x1 : (⟨S2x625000, .i32⟩ : BufTy).Contents (Elt Ideal)) (x2 : (⟨S625000, .f32⟩ : BufTy).Contents (Elt Ideal))
    (x5 : (⟨S128x128, .f32⟩ : BufTy).Contents (Elt Ideal)) (x6 : (⟨S128, .f32⟩ : BufTy).Contents (Elt Ideal)) :
    val_main_v29 (F := Ideal) x0 x1 x2 x5 x6 = Cert.Encoder.stdOf (val_main_v16 (F := Ideal) x0 x1 x2) x5 x6 := by
  funext i
  simp only [val_main_v29_apply, val_main_v27_apply, val_main_call0_v4_apply, val_main_call0_v6_apply, val_main_call0_v11_apply,
    val_main_call0_v1_apply, val_main_call0_v10_apply, val_main_call0_v9_apply, val_main_call0_v8_apply, val_main_call0_v7_apply,
    val_main_call0_v3_apply, val_main_v28_apply, val_main_cst_1_apply, val_main_call0_v0_apply, val_main_call0_v2_apply,
    val_main_call0_v5_apply, val_main_call0_cst_apply, raw_std_at]
  exact Cert.Encoder.softplus_host_form _

end Cert.ReferenceIdeal.RefValue

end
-- ==== Proof.Bridge.lean ====
import proofs.«157036_j51496657879185_2_alg».proof.Proof.KStages
import proofs.«157036_j51496657879185_2_alg».proof.Proof.RValue

/-!
The two programs apply the same host operations, written once per program: the message-passing stage
and the decoder. Operation for operation and constant for constant the two spellings are one term.
-/

noncomputable section

namespace Cert.Bridge

open Idealize.ShloMosaic

/-- The message-passing stage is one function in both programs. -/
theorem ptr_eq (x0 : (⟨Cert.ReferenceIdeal.S100000x128, .f32⟩ : BufTy).Contents (Elt Ideal))
    (x1 : (⟨Cert.ReferenceIdeal.S2x625000, .i32⟩ : BufTy).Contents (Elt Ideal))
    (x2 : (⟨Cert.ReferenceIdeal.S625000, .f32⟩ : BufTy).Contents (Elt Ideal)) :
    Cert.ReferenceIdeal.Read.val_main_v16 (F := Ideal) x0 x1 x2 = Cert.KernelIdeal.Stages.ptrK (F := Ideal) x0 x1 x2 := rfl

/-- The decoder is one function in both programs. -/
theorem tail_eq (L : (⟨Cert.ReferenceIdeal.S100000x128, .f32⟩ : BufTy).Contents (Elt Ideal))
    (x1 : (⟨Cert.ReferenceIdeal.S2x625000, .i32⟩ : BufTy).Contents (Elt Ideal)) :
    Cert.ReferenceIdeal.RefValue.tailR (F := Ideal) L x1 = Cert.KernelIdeal.Stages.tailK (F := Ideal) L x1 := rfl

end Cert.Bridge

end
-- ==== Proof.lean ====
/-
  The encoder-decoder program and its reference compute the same three arrays on the extended reals.

  Both programs first aggregate node features by message passing (gather the source rows of `emb`,
  scale each by its edge's norm, sum into the target rows): the same host operations in both, kept
  as one array `P`. From `P` both compute two linear heads — `loc = P · loc_wᵀ + loc_b` and
  `std = softplus(P · std_wᵀ + std_b) + ε` — the kernel program in one fused tiled kernel over ten
  blocks of 10000 rows with the weights transposed beforehand, the reference by two whole products —
  and both decode the edge logits `Σ_j loc[src e, j] · loc[tgt e, j]` by the same host operations.

  On the extended reals a change of float format is the identity, a product accumulated into zero is
  the plain sum, and the sum over the contracted axis is the same sum in both programs; the two
  spellings of the softplus agree (their self-comparison guard never fires, and `0 - |y|` is `-|y|`).
  So each result is one function of the arguments in both programs, entry by entry. No finiteness of
  the inputs is needed: only commutativity and associativity enter.

  The three frames are the generated ones (the reference's is its generated run with the results
  dropped); the ideal pass rewrote nothing, so the idealization claim is trivial.
-/
import proofs.«157036_j51496657879185_2_alg».proof.Defs
import proofs.«157036_j51496657879185_2_alg».proof.Proof.Gen.Kernel
import proofs.«157036_j51496657879185_2_alg».proof.Proof.Gen.Kernel.Skeleton
import proofs.«157036_j51496657879185_2_alg».proof.Proof.Gen.Kernel.Launch
import proofs.«157036_j51496657879185_2_alg».proof.Proof.Gen.Kernel.Points
import proofs.«157036_j51496657879185_2_alg».proof.Proof.Gen.Kernel.Frame
import proofs.«157036_j51496657879185_2_alg».proof.Proof.Gen.KernelIdeal
import proofs.«157036_j51496657879185_2_alg».proof.Proof.Gen.KernelIdeal.Skeleton
import proofs.«157036_j51496657879185_2_alg».proof.Proof.Gen.KernelIdeal.Launch
import proofs.«157036_j51496657879185_2_alg».proof.Proof.Gen.KernelIdeal.Points
import proofs.«157036_j51496657879185_2_alg».proof.Proof.Gen.KernelIdeal.Frame
import proofs.«157036_j51496657879185_2_alg».proof.Proof.Gen.ReferenceIdeal
import proofs.«157036_j51496657879185_2_alg».proof.Proof.Gen.Pre_finite_inputs
import proofs.«157036_j51496657879185_2_alg».proof.Proof.Gen.ReferenceIdeal.Run
import proofs.«157036_j51496657879185_2_alg».proof.Proof.Gen.ReferenceIdeal.Read
import proofs.«157036_j51496657879185_2_alg».proof.Proof.Spec
import proofs.«157036_j51496657879185_2_alg».proof.Proof.KStages
import proofs.«157036_j51496657879185_2_alg».proof.Proof.KRun
import proofs.«157036_j51496657879185_2_alg».proof.Proof.RValue
import proofs.«157036_j51496657879185_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The reference's first result, as a function of arguments equal to the kernel program's, is the linear head
    of the shared message-passing stage. -/
theorem ref_loc (x0 : (⟨Cert.ReferenceIdeal.S100000x128, .f32⟩ : BufTy).Contents (Elt Ideal))
    (x1 : (⟨Cert.ReferenceIdeal.S2x625000, .i32⟩ : BufTy).Contents (Elt Ideal))
    (x2 : (⟨Cert.ReferenceIdeal.S625000, .f32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal)) :
    Cert.ReferenceIdeal.Read.val_main_v21 (F := Ideal) x0 x1 x2 x3 x4
      = Cert.Encoder.head (Cert.KernelIdeal.Stages.ptrK (F := Ideal) x0 x1 x2) x3 x4 :=
  (Cert.ReferenceIdeal.RefValue.loc_eq x0 x1 x2 x3 x4).trans
    (congrArg (fun P => Cert.Encoder.head P x3 x4) (Cert.Bridge.ptr_eq x0 x1 x2))

/-- Run from memories that agree on the arguments, the two idealized programs end with equal results: each
    result is the same function of the arguments in both. -/
theorem algebraic : Cert.algebraic_KernelIdeal_ReferenceIdeal := by
  intro m ρ m' ρ' _ hagree
  refine ⟨_, _, _, Cert.KernelIdeal.Result.run m ρ, ?_⟩
  refine (θ_run Cert.ReferenceIdeal.defs _ _).mono (fun _ h c => ?_) (Cert.ReferenceIdeal.Value.run (F := Ideal) m' ρ')
  obtain ⟨h0, h1, h2, hk⟩ := h c
  obtain ⟨e0, e1, e2, e3, e4, e5, e6⟩ := hagree c
  refine ⟨h0.trans ?_, h1.trans ?_, h2.trans ?_, hk⟩
  · rw [e0, e1, e2, e3, e4]
    exact (Cert.ReferenceIdeal.Read.val_main_v21_eq _ _ _ _ _).trans (ref_loc _ _ _ _ _)
  · rw [Cert.ReferenceIdeal.Read.val_main_v29_eq, e0, e1, e2, e5, e6]
    exact (Cert.ReferenceIdeal.RefValue.std_eq _ _ _ _ _).trans
      (congrArg (fun P => Cert.Encoder.stdOf P _ _) (Cert.Bridge.ptr_eq _ _ _))
  · rw [Cert.ReferenceIdeal.Read.val_main_v45_eq, e0, e1, e2, e3, e4]
    exact (Cert.ReferenceIdeal.RefValue.logits_eq _ _ _ _ _).trans
      ((Cert.Bridge.tail_eq _ _).trans (congrArg (fun L => Cert.KernelIdeal.Stages.tailK (F := Ideal) L _) (ref_loc _ _ _ _ _)))

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
